-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x64 : Shape := ⟨4, ![8, 128, 128, 64]⟩
abbrev S_ : Shape := ⟨0, ![]⟩

class Facts : Prop where
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  h_S_ : 0 < S_.numel

variable [Facts]

def fn {F : FTy → Type} [FloatOps F] (main_arg0 : FVec F S8x128x128x64 .f32) (main_arg1 : IVec S8x128x128x64 32) : IVec S_ 1 :=
  let main_v0 : FVec F S8x128x128x64 .f32 := Host.absf main_arg0
  let main_cst : FVec F S_ .f32 := constant S_ .f32 0x7F800000#32
  let main_v1 : FVec F S8x128x128x64 .f32 := broadcastInDim S8x128x128x64 ![] bcast_S_S8x128x128x64 main_cst
  let main_v2 : IVec S8x128x128x64 1 := cmpf .olt main_v0 main_v1
  let main_c : IVec S_ 1 := constantI S_ 1 1#1
  let main_v3 : IVec S_ 1 := (fun x v => Host.reduce IntOp.andi x v reducesTo_S8x128x128x64_S_d0_1_2_3 h_S_) main_v2 main_c
  let main_c_0 : IVec S_ 32 := constantI S_ 32 0#32
  let main_v4 : IVec S8x128x128x64 32 := broadcastInDim S8x128x128x64 ![] bcast_S_S8x128x128x64 main_c_0
  let main_v5 : IVec S8x128x128x64 1 := cmpi .sge main_arg1 main_v4
  let main_c_1 : IVec S_ 1 := constantI S_ 1 1#1
  let main_v6 : IVec S_ 1 := (fun x v => Host.reduce IntOp.andi x v reducesTo_S8x128x128x64_S_d0_1_2_3 h_S_) main_v5 main_c_1
  let main_v7 : IVec S_ 1 := andi main_v3 main_v6
  let main_c_2 : IVec S_ 32 := constantI S_ 32 4194304#32
  let main_v8 : IVec S8x128x128x64 32 := broadcastInDim S8x128x128x64 ![] bcast_S_S8x128x128x64 main_c_2
  let main_v9 : IVec S8x128x128x64 1 := cmpi .slt main_arg1 main_v8
  let main_c_3 : IVec S_ 1 := constantI S_ 1 1#1
  let main_v10 : IVec S_ 1 := (fun x v => Host.reduce IntOp.andi x v reducesTo_S8x128x128x64_S_d0_1_2_3 h_S_) main_v9 main_c_3
  let main_v11 : IVec S_ 1 := andi main_v7 main_v10
  main_v11
-- ==== Kernel.lean ====
abbrev S8x128x128x64 : Shape := ⟨4, ![8, 128, 128, 64]⟩
abbrev S1x128x128x64 : Shape := ⟨4, ![1, 128, 128, 64]⟩
abbrev S8388608 : Shape := ⟨1, ![8388608]⟩
abbrev S_ : Shape := ⟨0, ![]⟩
abbrev S33554432 : Shape := ⟨1, ![33554432]⟩
abbrev S8388608x1 : Shape := ⟨2, ![8388608, 1]⟩
abbrev S8x256x256x64 : Shape := ⟨4, ![8, 256, 256, 64]⟩

abbrev nBuf : Space → Nat
  | .hbm => 17
  | .vmem => 4
  | .smem => 0
  | _ => 0

abbrev bufTy : (tb : Table) → Fin (tcTables nBuf tb) → BufTy
  | .hbm, ⟨0, _⟩ => ⟨S8x128x128x64, .f32⟩
  | .hbm, ⟨1, _⟩ => ⟨S8x128x128x64, .i32⟩
  | .hbm, ⟨2, _⟩ => ⟨S8x128x128x64, .i32⟩
  | .hbm, ⟨3, _⟩ => ⟨S8388608, .f32⟩
  | .hbm, ⟨4, _⟩ => ⟨S8388608, .i32⟩
  | .hbm, ⟨5, _⟩ => ⟨S_, .f32⟩
  | .hbm, ⟨6, _⟩ => ⟨S33554432, .f32⟩
  | .hbm, ⟨7, _⟩ => ⟨S_, .i32⟩
  | .hbm, ⟨8, _⟩ => ⟨S8388608, .i32⟩
  | .hbm, ⟨9, _⟩ => ⟨S8388608, .i1⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S33554432, .f32⟩
  | .hbm, ⟨16, _⟩ => ⟨S8x256x256x64, .f32⟩
  | .local _ .vmem, ⟨0, _⟩ => ⟨S1x128x128x64, .i32⟩
  | .local _ .vmem, ⟨1, _⟩ => ⟨S1x128x128x64, .i32⟩
  | .local _ .vmem, ⟨2, _⟩ => ⟨S1x128x128x64, .i32⟩
  | .local _ .vmem, ⟨3, _⟩ => ⟨S1x128x128x64, .i32⟩
  | _, _ => ⟨S8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S8x128x128x64_S8388608 : S8x128x128x64.ShapeCasts S8388608
  bcast_S_S33554432 : S_.BroadcastsInDim S33554432 (![] : Fin 0 → Fin S33554432.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S33554432_S8x256x256x64 : S33554432.ShapeCasts S8x256x256x64
  scatter_S33554432_S8388608x1_S8388608_n_0_0_1_wf : ScatterDims.WF S33554432 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S8x128x128x64.size a
  hwx0_0 : ∀ i : grid0.Coords, EltTy.bits .i32 = 32 ∨ (Rect.block (s := S8x128x128x64) S1x128x128x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x64.size a ≤ S8x128x128x64.size a
  hwx0_1 : ∀ i : grid0.Coords, EltTy.bits .i32 = 32 ∨ (Rect.block (s := S8x128x128x64) S1x128x128x64.size (cc0_transform_1 i) (hinb0_1 i)).WholeWords (EltTy.packing .i32)

variable [Facts₀]

def scatter_S33554432_S8388608x1_S8388608_n_0_0_1 : ScatterDims S33554432 S8388608x1 S8388608 where
  updateWindowDims := []
  insertedWindowDims := [0]
  scatterDimsToOperandDims := [0]
  indexVectorDim := 1
  wf := scatter_S33554432_S8388608x1_S8388608_n_0_0_1_wf

abbrev win0_0 : Pipeline.Window sig grid0 :=
  Pipeline.Window.ofSpec (Memref.whole main_arg1) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x128x128x64 : Shape := ⟨4, ![8, 128, 128, 64]⟩
abbrev S8388608 : Shape := ⟨1, ![8388608]⟩
abbrev S8 : Shape := ⟨1, ![8]⟩
abbrev S8x1048576 : Shape := ⟨2, ![8, 1048576]⟩
abbrev S_ : Shape := ⟨0, ![]⟩
abbrev S33554432 : Shape := ⟨1, ![33554432]⟩
abbrev S8388608x1 : Shape := ⟨2, ![8388608, 1]⟩
abbrev S8x256x256x64 : Shape := ⟨4, ![8, 256, 256, 64]⟩

abbrev nBuf : Space → Nat
  | .hbm => 133
  | .vmem => 0
  | .smem => 0
  | _ => 0

abbrev hbmTy0_0 (i : Nat) : BufTy := match i % 128 with
  | 0 => ⟨S8x128x128x64, .f32⟩
  | 1 => ⟨S8x128x128x64, .i32⟩
  | 2 => ⟨S8388608, .i32⟩
  | 3 => ⟨S8388608, .f32⟩
  | 4 => ⟨S8, .i32⟩
  | 5 => ⟨S8x1048576, .i32⟩
  | 6 => ⟨S8388608, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S8388608, .i32⟩
  | 14 => ⟨S8388608, .i32⟩
  | 15 => ⟨S_, .i32⟩
  | 16 => ⟨S8388608, .i32⟩
  | 17 => ⟨S8388608, .i1⟩
  | 18 => ⟨S_, .i32⟩
  | 19 => ⟨S8388608, .i32⟩
  | 20 => ⟨S8388608, .i1⟩
  | 21 => ⟨S_, .i32⟩
  | 22 => ⟨S_, .i1⟩
  | 23 => ⟨S8388608, .i1⟩
  | 24 => ⟨S8388608, .i1⟩
  | 25 => ⟨S8388608, .i1⟩
  | 26 => ⟨S8388608, .i32⟩
  | 27 => ⟨S8388608, .i32⟩
  | 28 => ⟨S8388608, .i32⟩
  | 29 => ⟨S_, .i32⟩
  | 30 => ⟨S_, .i32⟩
  | 31 => ⟨S8388608, .i32⟩
  | 32 => ⟨S8388608, .i32⟩
  | 33 => ⟨S8388608, .i32⟩
  | 34 => ⟨S_, .i32⟩
  | 35 => ⟨S8388608, .i32⟩
  | 36 => ⟨S8388608, .i1⟩
  | 37 => ⟨S8388608, .i32⟩
  | 38 => ⟨S8388608, .i32⟩
  | 39 => ⟨S_, .i32⟩
  | 40 => ⟨S8388608, .i32⟩
  | 41 => ⟨S8388608, .i1⟩
  | 42 => ⟨S8388608, .i1⟩
  | 43 => ⟨S_, .i32⟩
  | 44 => ⟨S8388608, .i32⟩
  | 45 => ⟨S8388608, .i32⟩
  | 46 => ⟨S8388608, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S8388608, .i32⟩
  | 54 => ⟨S8388608, .i32⟩
  | 55 => ⟨S_, .i32⟩
  | 56 => ⟨S8388608, .i32⟩
  | 57 => ⟨S8388608, .i1⟩
  | 58 => ⟨S_, .i32⟩
  | 59 => ⟨S8388608, .i32⟩
  | 60 => ⟨S8388608, .i1⟩
  | 61 => ⟨S_, .i32⟩
  | 62 => ⟨S_, .i1⟩
  | 63 => ⟨S8388608, .i1⟩
  | 64 => ⟨S8388608, .i1⟩
  | 65 => ⟨S8388608, .i1⟩
  | 66 => ⟨S8388608, .i32⟩
  | 67 => ⟨S8388608, .i32⟩
  | 68 => ⟨S8388608, .i32⟩
  | 69 => ⟨S_, .i32⟩
  | 70 => ⟨S_, .i32⟩
  | 71 => ⟨S8388608, .i32⟩
  | 72 => ⟨S8388608, .i32⟩
  | 73 => ⟨S8388608, .i32⟩
  | 74 => ⟨S_, .i32⟩
  | 75 => ⟨S8388608, .i32⟩
  | 76 => ⟨S8388608, .i1⟩
  | 77 => ⟨S8388608, .i32⟩
  | 78 => ⟨S8388608, .i32⟩
  | 79 => ⟨S_, .i32⟩
  | 80 => ⟨S8388608, .i32⟩
  | 81 => ⟨S8388608, .i1⟩
  | 82 => ⟨S8388608, .i1⟩
  | 83 => ⟨S_, .i32⟩
  | 84 => ⟨S8388608, .i32⟩
  | 85 => ⟨S8388608, .i32⟩
  | 86 => ⟨S8388608, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S8388608, .i32⟩
  | 94 => ⟨S8388608, .i32⟩
  | 95 => ⟨S_, .i32⟩
  | 96 => ⟨S8388608, .i32⟩
  | 97 => ⟨S8388608, .i1⟩
  | 98 => ⟨S_, .i32⟩
  | 99 => ⟨S8388608, .i32⟩
  | 100 => ⟨S8388608, .i1⟩
  | 101 => ⟨S_, .i32⟩
  | 102 => ⟨S_, .i1⟩
  | 103 => ⟨S8388608, .i1⟩
  | 104 => ⟨S8388608, .i1⟩
  | 105 => ⟨S8388608, .i1⟩
  | 106 => ⟨S8388608, .i32⟩
  | 107 => ⟨S8388608, .i32⟩
  | 108 => ⟨S8388608, .i32⟩
  | 109 => ⟨S_, .i32⟩
  | 110 => ⟨S8388608, .i32⟩
  | 111 => ⟨S8388608, .i32⟩
  | 112 => ⟨S8388608, .i32⟩
  | 113 => ⟨S_, .i32⟩
  | 114 => ⟨S8388608, .i32⟩
  | 115 => ⟨S8388608, .i32⟩
  | 116 => ⟨S8388608, .i32⟩
  | 117 => ⟨S_, .i32⟩
  | 118 => ⟨S8388608, .i32⟩
  | 119 => ⟨S8388608, .i32⟩
  | 120 => ⟨S8388608, .i32⟩
  | 121 => ⟨S_, .f32⟩
  | 122 => ⟨S33554432, .f32⟩
  | 123 => ⟨S_, .i32⟩
  | 124 => ⟨S8388608, .i32⟩
  | 125 => ⟨S8388608, .i1⟩
  | 126 => ⟨S_, .i32⟩
  | 127 => ⟨S8388608, .i32⟩
  | _ => ⟨S8x128x128x64, .f32⟩

abbrev hbmTy0_1 (i : Nat) : BufTy := match i % 128 with
  | 0 => ⟨S8388608, .i32⟩
  | 1 => ⟨S8388608, .i32⟩
  | 2 => ⟨S8388608x1, .i32⟩
  | 3 => ⟨S33554432, .f32⟩
  | 4 => ⟨S8x256x256x64, .f32⟩
  | _ => ⟨S8x128x128x64, .f32⟩

abbrev hbmTy (i : Nat) : BufTy := match i / 128 with
  | 0 => hbmTy0_0 i
  | 1 => hbmTy0_1 i
  | _ => ⟨S8x128x128x64, .f32⟩

abbrev bufTy : (tb : Table) → Fin (tcTables nBuf tb) → BufTy
  | .hbm, ⟨i, _⟩ => hbmTy i
  | _, _ => ⟨S8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v5 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v6 : Ref sig .tc := ⟨.hbm, 46, rfl⟩
abbrev main_c_1 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_1 : Ref sig .tc := ⟨.hbm, 55, rfl⟩
abbrev main_call2_v5 : Ref sig .tc := ⟨.hbm, 56, rfl⟩
abbrev main_call2_v6 : Ref sig .tc := ⟨.hbm, 57, rfl⟩
abbrev main_call2_c_2 : Ref sig .tc := ⟨.hbm, 58, rfl⟩
abbrev main_call2_v7 : Ref sig .tc := ⟨.hbm, 59, rfl⟩
abbrev main_call2_v8 : Ref sig .tc := ⟨.hbm, 60, rfl⟩
abbrev main_call2_c_3 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_v7 : Ref sig .tc := ⟨.hbm, 68, rfl⟩
abbrev main_c_2 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v8 : Ref sig .tc := ⟨.hbm, 86, rfl⟩
abbrev main_c_3 : Ref sig .tc := ⟨.hbm, 87, rfl⟩
abbrev main_call4_v0 : Ref sig .tc := ⟨.hbm, 88, rfl⟩
abbrev main_call4_c : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_1 : Ref sig .tc := ⟨.hbm, 95, rfl⟩
abbrev main_call4_v5 : Ref sig .tc := ⟨.hbm, 96, rfl⟩
abbrev main_call4_v6 : Ref sig .tc := ⟨.hbm, 97, rfl⟩
abbrev main_call4_c_2 : Ref sig .tc := ⟨.hbm, 98, rfl⟩
abbrev main_call4_v7 : Ref sig .tc := ⟨.hbm, 99, rfl⟩
abbrev main_call4_v8 : Ref sig .tc := ⟨.hbm, 100, rfl⟩
abbrev main_call4_c_3 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_v9 : Ref sig .tc := ⟨.hbm, 108, rfl⟩
abbrev main_c_4 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_c_5 : Ref sig .tc := ⟨.hbm, 113, rfl⟩
abbrev main_v13 : Ref sig .tc := ⟨.hbm, 114, rfl⟩
abbrev main_v14 : Ref sig .tc := ⟨.hbm, 115, rfl⟩
abbrev main_v15 : Ref sig .tc := ⟨.hbm, 116, rfl⟩
abbrev main_c_6 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_cst : Ref sig .tc := ⟨.hbm, 121, rfl⟩
abbrev main_v19 : Ref sig .tc := ⟨.hbm, 122, rfl⟩
abbrev main_c_7 : Ref sig .tc := ⟨.hbm, 123, rfl⟩
abbrev main_v20 : Ref sig .tc := ⟨.hbm, 124, rfl⟩
abbrev main_v21 : Ref sig .tc := ⟨.hbm, 125, rfl⟩
abbrev main_c_8 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩

abbrev nD : Nat := 1
abbrev τ : Topo := Topo.v7x

variable {F : FTy → Type} [FloatOps F]

class Facts₀ : Prop where
  shapeCasts_S8x128x128x64_S8388608 : S8x128x128x64.ShapeCasts S8388608
  bcast_S8_S8x1048576_0 : S8.BroadcastsInDim S8x1048576 (![0] : Fin 1 → Fin S8x1048576.rank)
  shapeCasts_S8x1048576_S8388608 : S8x1048576.ShapeCasts S8388608
  bcast_S_S8388608 : S_.BroadcastsInDim S8388608 (![] : Fin 0 → Fin S8388608.rank)
  bcast_S_S33554432 : S_.BroadcastsInDim S33554432 (![] : Fin 0 → Fin S33554432.rank)
  bcast_S8388608_S8388608x1_0 : S8388608.BroadcastsInDim S8388608x1 (![0] : Fin 1 → Fin S8388608x1.rank)
  shapeCasts_S33554432_S8x256x256x64 : S33554432.ShapeCasts S8x256x256x64
  scatter_S33554432_S8388608x1_S8388608_n_0_0_1_wf : ScatterDims.WF S33554432 S8388608x1 S8388608 [] [0] [0] 1

variable [Facts₀]

def scatter_S33554432_S8388608x1_S8388608_n_0_0_1 : ScatterDims S33554432 S8388608x1 S8388608 where
  updateWindowDims := []
  insertedWindowDims := [0]
  scatterDimsToOperandDims := [0]
  indexVectorDim := 1
  wf := scatter_S33554432_S8388608x1_S8388608_n_0_0_1_wf

class Facts : Prop extends Facts₀ where

variable [Facts]
-- ==== Proof.Spec.lean ====
/-
  The scalar arithmetic of the max-unpooling index decode, on 32-bit words.

  The reference decodes a flat per-image index a into a row h, a column w and a channel c by remainders and
  floored quotients with the literal divisors 4194304 = 256 * 256 * 64, 16384 = 256 * 64 and 64, and recombines
  them with the image number b as ((b * 256 + h) * 256 + w) * 64 + c.  Each remainder and floored quotient is
  the host's truncating operation followed by the usual sign repair.  The functions below are those repairs
  and that recombination for ONE element, so that the array statements elsewhere are these functions applied
  index by index.
-/
import Idealize.ShloMosaic.PureOps

namespace Cert.Unpool.Spec

open Idealize.ShloMosaic

/-- The remainder of a by d with the sign of the divisor (Python's a % d): a zero divisor is first replaced by
    one; r is the host's truncating remainder; when r is nonzero and its sign differs from the divisor's, the
    divisor is added. -/
def remW (a d : BitVec 32) : BitVec 32 :=
  let d' : BitVec 32 := Scalar.select (IntOp.cmpi .eq d 0#32) 1#32 d
  let r : BitVec 32 := IntOp.remsi .host a d'
  Scalar.select
    (IntOp.andi (IntOp.cmpi .ne (IntOp.cmpi .slt r 0#32) (IntOp.cmpi .slt d' 0#32)) (IntOp.cmpi .ne r 0#32))
    (IntOp.addi r d') r

/-- The sign of a word as a word: 0, -1 or 1. -/
def sgnW (x : BitVec 32) : BitVec 32 := if x = 0 then 0 else if x.msb then -1 else 1

/-- The quotient of a by d rounded toward minus infinity (Python's a // d): the host's truncating quotient,
    less one when the signs of a and d differ and the truncating remainder is nonzero. -/
def fdivW (a d : BitVec 32) : BitVec 32 :=
  let q : BitVec 32 := IntOp.divsi .host a d
  let r : BitVec 32 := IntOp.remsi .host a d
  Scalar.select (IntOp.andi (IntOp.cmpi .ne (sgnW a) (sgnW d)) (IntOp.cmpi .ne r 0#32)) (IntOp.subi q 1#32) q

/-- The reference's flat output position of one pooled element: image b, per-image flat index a. -/
def flatW (b a : BitVec 32) : BitVec 32 :=
  let h : BitVec 32 := fdivW (remW a 4194304#32) 16384#32
  let w : BitVec 32 := fdivW (remW a 16384#32) 64#32
  let c : BitVec 32 := remW a 64#32
  IntOp.addi (IntOp.muli (IntOp.addi (IntOp.muli (IntOp.addi (IntOp.muli b 256#32) h) 256#32) w) 64#32) c

/-- The kernel's flat output position of the same element: the per-image index offset by the image's size. -/
def offsetW (b a : BitVec 32) : BitVec 32 := IntOp.addi a (IntOp.muli b 4194304#32)

end Cert.Unpool.Spec
-- ==== Proof.KernelValue.lean ====
/-
  What the idealized kernel's program leaves in its result, as one function of the argument arrays.

  The region has one grid point per image b (eight of them). At point b it loads image b of the index array,
  adds the word b * 4194304 to every element, and stores the sum as image b of the output. So the array the
  region writes is, index by index, the per-image flat index offset by its image's size: the function
  "positions" below. The eight blocks are the eight images, so they cover the array, and the array after the region
  IS that function. The operations after the region (flatten, wrap negative positions, scatter-add the flattened
  values into zeros, reshape) are then applied to it: the function "scatterTail".
-/
import proofs.«145653_j38457137168658_2_alg».proof.Proof.KernelIdealFrameP
import proofs.«145653_j38457137168658_2_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.Pipeline (Dat)
open Cert.Unpool

variable {F : FTy → Type} [FloatOps F]
variable (m : (ℓ : Loc nD τ sig) → Buf (Elt F) ℓ) (ρ : Dev nD → PrngReg)

/-- The flat output position of every pooled element as the kernel computes it: the element's per-image index
    offset by its image number (the leading coordinate) times the size of one output image. -/
def positions (a : IVec S8x128x128x64 32) : IVec S8x128x128x64 32 :=
  fun i => Spec.offsetW (BitVec.ofNat 32 (i 0).val) (a i)

/-- The scatter itself, as one function of the values x (pooled layout) and of FLAT positions f, one per pooled
    element in row-major order: flatten the values, wrap a negative position by the output's length, scatter-add the
    values into zeros at the positions, and give the result the output's four-axis shape. -/
def flatTail (x : FVec F S8x128x128x64 .f32) (f : IVec S8388608 32) : FVec F S8x256x256x64 .f32 :=
  shapeCast S8x256x256x64
    (Host.scatterAdd scatter_S33554432_S8388608x1_S8388608_n_0_0_1
      (broadcastInDim S33554432 ![] bcast_S_S33554432 (constant S_ .f32 0x00000000#32))
      (broadcastInDim S8388608x1 ![0] bcast_S8388608_S8388608x1_0
        (select
          (cmpi .slt f (broadcastInDim S8388608 ![] bcast_S_S8388608 (constantI S_ 32 0#32)))
          (addi f (broadcastInDim S8388608 ![] bcast_S_S8388608 (constantI S_ 32 33554432#32)))
          f))
      (shapeCast S8388608 x shapeCasts_S8x128x128x64_S8388608))
    shapeCasts_S33554432_S8x256x256x64

/-- The operations after the region, as one function of the values x and the positions p, both still in the pooled
    layout: the positions are flattened first, then scattered as above. -/
def scatterTail (x : FVec F S8x128x128x64 .f32) (p : IVec S8x128x128x64 32) : FVec F S8x256x256x64 .f32 :=
  flatTail x (shapeCast S8388608 p shapeCasts_S8x128x128x64_S8388608)

theorem offset_zero : (![0, 0, 0, 0] : Fin 4 → Nat) = fun _ => 0 := funext fun a => by fin_cases a <;> rfl

/-- The two windows move together, one image per point: block index (b, 0, 0, 0) at the point of image b. -/
theorem index_facts : ∀ t : Fin cfg0.N,
    win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_1.index t (0 : Fin 4) = (grid0.coords t 0).val ∧ win0_1.index t (0 : Fin 4) ≤ 7 :=
  (by decide +kernel : ∀ t : Fin grid0.N, _)

/-- Every image is some point's block. -/
theorem index_onto : ∀ b : Fin 8, ∃ t : Fin cfg0.N, win0_1.index t = ![b.val, 0, 0, 0] :=
  (by decide +kernel : ∀ b : Fin 8, ∃ t : Fin grid0.N, win0_1.index t = ![b.val, 0, 0, 0])

/-- The body's stored value at an element: the loaded element offset by the point's image number. -/
theorem payload_apply (i : grid0.Coords) (v : Vec F S1x128x128x64 .i32) (j : S1x128x128x64.Idx) :
    k0_pay1 i v j = Spec.offsetW (BitVec.ofNat 32 (i 0).val) (v j) := rfl

/-- What point t writes back is image t of "positions" of the index array as the region finds it. -/
theorem flushed_eq (c : Dev nD) (t : Fin cfg0.N) :
    (dats m 0 c).flushed 1 t = ((cfg0.win 1).blk t).view.read (Elt F) (positions (V m c main_arg1)) := by
  show (cfg0.win 1).cut (grid0.coords t) ((dats m 0 c).after 1 t) = _
  rw [after0_1]
  unfold out0_1
  rw [View.canon_unit_zero offset_zero]
  simp only [View.ld_unit_zero (S := S1x128x128x64) offset_zero]
  obtain ⟨e0, e1, e2, e3, e4, e5, e6, e7, e8⟩ := index_facts t
  funext j
  show k0_pay1 (grid0.coords t) (iblk m c 0 t) j = positions (V m c main_arg1) (((cfg0.win 1).blk t).view.emb j)
  rw [payload_apply]
  have h0 : ((cfg0.win 0).blk t).view.emb j = ((cfg0.win 1).blk t).view.emb j := by
    funext a; apply Fin.ext
    match a with
    | ⟨0, _⟩ => show win0_0.index t (0 : Fin 4) * 1 + 1 * (j 0).val = win0_1.index t (0 : Fin 4) * 1 + 1 * (j 0).val; omega
    | ⟨1, _⟩ => show win0_0.index t (1 : Fin 4) * 128 + 1 * (j 1).val = win0_1.index t (1 : Fin 4) * 128 + 1 * (j 1).val; omega
    | ⟨2, _⟩ => show win0_0.index t (2 : Fin 4) * 128 + 1 * (j 2).val = win0_1.index t (2 : Fin 4) * 128 + 1 * (j 2).val; omega
    | ⟨3, _⟩ => show win0_0.index t (3 : Fin 4) * 64 + 1 * (j 3).val = win0_1.index t (3 : Fin 4) * 64 + 1 * (j 3).val; omega
  have hb : ((((cfg0.win 1).blk t).view.emb j) 0).val = (grid0.coords t 0).val := by
    show win0_1.index t (0 : Fin 4) * 1 + 1 * (j 0).val = _
    have hj : (j 0).val < 1 := (j 0).isLt
    omega
  show Spec.offsetW (BitVec.ofNat 32 (grid0.coords t 0).val) (V m c main_arg1 (((cfg0.win 0).blk t).view.emb j))
    = Spec.offsetW (BitVec.ofNat 32 ((((cfg0.win 1).blk t).view.emb j) 0).val) (V m c main_arg1 (((cfg0.win 1).blk t).view.emb j))
  rw [h0, hb]

/-- An index of the output array is in point t's block iff each coordinate is in the block's range on its axis. -/
theorem mem_block (t : Fin cfg0.N) (i : S8x128x128x64.Idx) :
    i ∈ ((cfg0.win 1).blk t).view.set ↔ ∀ a : Fin 4, win0_1.index t a * S1x128x128x64.size a ≤ (i a).val ∧ (i a).val < win0_1.index t a * S1x128x128x64.size a + S1x128x128x64.size a := by
  show i ∈ ((View.whole main_v0).slice (win0_1.rect t)).set ↔ _
  rw [View.set_slice_whole, Rect.mem_set_unit]
  exact Iff.rfl

/-- Every index lies in the block of its own image. -/
theorem covered (i : S8x128x128x64.Idx) :
    ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  have hi3 : (i 3).val < 64 := (i 3).isLt
  obtain ⟨t, ht⟩ := index_onto ⟨(i 0).val, hi0⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 128 ≤ (i 1).val ∧ (i 1).val < win0_1.index t (1 : Fin 4) * 128 + 128; omega
  | ⟨2, _⟩ => show win0_1.index t (2 : Fin 4) * 128 ≤ (i 2).val ∧ (i 2).val < win0_1.index t (2 : Fin 4) * 128 + 128; omega
  | ⟨3, _⟩ => show win0_1.index t (3 : Fin 4) * 64 ≤ (i 3).val ∧ (i 3).val < win0_1.index t (3 : Fin 4) * 64 + 64; omega

/-- The array the region writes, after the run: "positions" of the index argument. -/
theorem region_array (c : Dev nD) :
    (dats m 0 c).arrAt 1 cfg0.N = positions (m ((c : Thread nD τ).loc main_arg1)) := by
  rw [(dats m 0 c).arrAt_eq_of_cover 1 (positions (V m c main_arg1)) (fun t _ => flushed_eq m c t) covered]
  rw [V_main_arg1]

end Cert.KernelIdeal.KValue

end
-- ==== Proof.KernelRun.lean ====
/-
  The idealized kernel's whole run, read: the result buffer ends at the scatter tail of the values and of the
  kernel's positions, and the two argument arrays end as they were launched.

  The frame run states the result as the operations after the region applied to the arrays the region leaves.
  Of those, the region's output array is the function "positions" of the index argument (the blocks cover it), and
  the value argument is no array of the region, so it is still what was launched.
-/
import proofs.«145653_j38457137168658_2_alg».proof.Proof.KernelValue

set_option maxRecDepth 16384

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Among the arrays the operations after the region read, the region's output is "positions" of the index argument. -/
theorem tail_reads_positions (c : Dev nD) :
    Pipeline.withArrays (cfgs 0).spec c (V0 m c) (fun w => (dats m 0 c).arrAt w (cfgs 0).N) (Proc.devRef .tc main_v0)
      = positions (m ((c : Thread nD τ).loc main_arg1)) :=
  (Pipeline.withArrays_arr spec0 launch0.win.arr_inj c _ _ 1).trans (region_array m c)

/-- and the value argument, which the region never stages, is as launched. -/
theorem tail_reads_values (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne _ c (V0 m c) _ main_arg0 (by exact (by decide : ∀ w, Pipeline.arrRef spec0 w ≠ main_arg0))).trans
    (V_main_arg0 m c)

/-- The result buffer after the operations that follow the region. -/
theorem tail_result (c : Dev nD) :
    Pipeline.afterTail₀ cfgs (dats m) 0 (V0 m) [hostOps1] c main_v11
      = scatterTail (m ((c : Thread nD τ).loc main_arg0)) (positions (m ((c : Thread nD τ).loc main_arg1))) := by
  unfold Pipeline.afterTail₀
  show StableHlo.after hostOps1 _ (Proc.devRef .tc main_v11) = _
  after_results
  rw [tail_reads_positions, tail_reads_values]
  rfl

/-- The value argument is no array of the region and no later operation writes it: it ends as launched. -/
theorem kept_values (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m (dats m) c)

/-- The index argument is staged by the region's input window and never written back: it ends as launched. -/
theorem kept_indices (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 0).trans (((dats m 0 c).arrAt_in 0 rfl _).trans ((A_eq m c 0).trans (V_main_arg1 m c)))

/-- Every weakly fair execution of the idealized kernel's program terminates with its result at the scatter tail of
    the launched values and of the kernel's positions of the launched indices, the arguments unchanged. -/
theorem run : θ_run defs (onTc (τ := τ) (main (F := F))) ⟨m, fun _ => 0, ρ⟩ fun r => ∀ c : Dev nD,
      r.2.mem ((c.tc : Thread nD τ).loc main_v11)
        = scatterTail (m ((c.tc : Thread nD τ).loc main_arg0)) (positions (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v11 (Pipeline.mem_restRefs_of main_v11 (by decide) (by decide))).trans (tail_result m c),
        kept_values m r h c, kept_indices m r h c⟩)
    (run_main m ρ)

end Cert.KernelIdeal.KValue

end
-- ==== Proof.RefOps.lean ====
/-
  The reference program as a straight line of host array operations, and its run as their fold.

  Once its calls are replaced by the bodies of the functions they name, the reference is a straight line: three
  calls of the sign-repaired remainder (twenty-one operations each: the divisor compared with zero and replaced by
  one when it is zero, the truncating remainder, the three tests of the repair, the sum with the divisor, the
  choice) and two of the floored quotient (seventeen each: the truncating quotient, the two signs and their
  comparison, the truncating remainder and its test, the quotient less one, the choice), among forty-one
  operations of its own — 131 in all.  Every weakly fair execution of it terminates, and each buffer ends at the
  fold of those operations over the launch contents.
-/
import proofs.«145653_j38457137168658_2_alg».proof.ReferenceIdeal
import proofs.«145653_j38457137168658_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 131 operations in order, each call replaced by its callee's operations over that call's
    own buffers (a call of the one-line choice function inside a callee likewise). -/
abbrev ops : List (HloOp τ sig (Elt F)) :=
  [ reshape main_arg1 main_v0 rfl shapeCasts_S8x128x128x64_S8388608,
    reshape main_arg0 main_v1 rfl shapeCasts_S8x128x128x64_S8388608,
    nullary main_v2 (iotaInDim S8 32 0),
    unary main_v2 main_v3 (broadcastInDim S8x1048576 ![0] bcast_S8_S8x1048576_0),
    reshape main_v3 main_v4 rfl shapeCasts_S8x1048576_S8388608,
    nullary main_c (constantI S_ 32 4194304#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8388608 ![] bcast_S_S8388608),
    TRef.binary (.of main_v0 : TRef sig ⟨S8388608, .i32⟩) main_call0.v3 main_call0.v4 Host.remsi,
    TRef.nullary main_call0.c_1 (constantI S_ 32 0#32),
    TRef.unary main_call0.c_1 main_call0.v5 (broadcastInDim S8388608 ![] bcast_S_S8388608),
    TRef.binary main_call0.v4 main_call0.v5 main_call0.v6 (cmpi .ne),
    TRef.nullary main_call0.c_2 (constantI S_ 32 0#32),
    TRef.unary main_call0.c_2 main_call0.v7 (broadcastInDim S8388608 ![] bcast_S_S8388608),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8388608 ![] bcast_S_S8388608),
    TRef.binary main_call0.v8 main_call0.v10 main_call0.v11 (cmpi .ne),
    TRef.binary main_call0.v11 main_call0.v6 main_call0.v12 andi,
    TRef.unary main_call0.call0.v0 main_call0.v13 (broadcastInDim S8388608 ![] bcast_S_S8388608),
    TRef.binary main_call0.v4 main_call0.v13 main_call0.v14 addi,
    TRef.ternary main_call0.v12 main_call0.v14 main_call0.v4 main_call0.v15 select,
    nullary main_c_0 (constantI S_ 32 16384#32),
    TRef.unary (.of main_c_0 : TRef sig ⟨S_, .i32⟩) main_call1.v0 id,
    TRef.unary main_call1.v0 main_call1.v1 (broadcastInDim S8388608 ![] bcast_S_S8388608),
    TRef.binary (.of main_v5 : TRef sig ⟨S8388608, .i32⟩) main_call1.v1 main_call1.v2 Host.divsi,
    TRef.unary (.of main_v5 : TRef sig ⟨S8388608, .i32⟩) main_call1.v3 signi,
    TRef.unary main_call1.v0 main_call1.v4 signi,
    TRef.unary main_call1.v4 main_call1.v5 (broadcastInDim S8388608 ![] bcast_S_S8388608),
    TRef.binary main_call1.v3 main_call1.v5 main_call1.v6 (cmpi .ne),
    TRef.unary main_call1.v0 main_call1.v7 (broadcastInDim S8388608 ![] bcast_S_S8388608),
    TRef.binary (.of main_v5 : TRef sig ⟨S8388608, .i32⟩) main_call1.v7 main_call1.v8 Host.remsi,
    TRef.nullary main_call1.c (constantI S_ 32 0#32),
    TRef.unary main_call1.c main_call1.v9 (broadcastInDim S8388608 ![] bcast_S_S8388608),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S8388608 ![] bcast_S_S8388608),
    TRef.binary main_call1.v2 main_call1.v12 main_call1.v13 subi,
    TRef.ternary main_call1.v11 main_call1.v13 main_call1.v2 main_call1.call0.v0 select,
    nullary main_c_1 (constantI S_ 32 16384#32),
    TRef.unary (.of main_c_1 : TRef sig ⟨S_, .i32⟩) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S8388608 ![] bcast_S_S8388608),
    TRef.binary (.of main_v0 : TRef sig ⟨S8388608, .i32⟩) main_call2.v3 main_call2.v4 Host.remsi,
    TRef.nullary main_call2.c_1 (constantI S_ 32 0#32),
    TRef.unary main_call2.c_1 main_call2.v5 (broadcastInDim S8388608 ![] bcast_S_S8388608),
    TRef.binary main_call2.v4 main_call2.v5 main_call2.v6 (cmpi .ne),
    TRef.nullary main_call2.c_2 (constantI S_ 32 0#32),
    TRef.unary main_call2.c_2 main_call2.v7 (broadcastInDim S8388608 ![] bcast_S_S8388608),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S8388608 ![] bcast_S_S8388608),
    TRef.binary main_call2.v8 main_call2.v10 main_call2.v11 (cmpi .ne),
    TRef.binary main_call2.v11 main_call2.v6 main_call2.v12 andi,
    TRef.unary main_call2.call0.v0 main_call2.v13 (broadcastInDim S8388608 ![] bcast_S_S8388608),
    TRef.binary main_call2.v4 main_call2.v13 main_call2.v14 addi,
    TRef.ternary main_call2.v12 main_call2.v14 main_call2.v4 main_call2.v15 select,
    nullary main_c_2 (constantI S_ 32 64#32),
    TRef.unary (.of main_c_2 : TRef sig ⟨S_, .i32⟩) main_call3.v0 id,
    TRef.unary main_call3.v0 main_call3.v1 (broadcastInDim S8388608 ![] bcast_S_S8388608),
    TRef.binary (.of main_v7 : TRef sig ⟨S8388608, .i32⟩) main_call3.v1 main_call3.v2 Host.divsi,
    TRef.unary (.of main_v7 : TRef sig ⟨S8388608, .i32⟩) main_call3.v3 signi,
    TRef.unary main_call3.v0 main_call3.v4 signi,
    TRef.unary main_call3.v4 main_call3.v5 (broadcastInDim S8388608 ![] bcast_S_S8388608),
    TRef.binary main_call3.v3 main_call3.v5 main_call3.v6 (cmpi .ne),
    TRef.unary main_call3.v0 main_call3.v7 (broadcastInDim S8388608 ![] bcast_S_S8388608),
    TRef.binary (.of main_v7 : TRef sig ⟨S8388608, .i32⟩) main_call3.v7 main_call3.v8 Host.remsi,
    TRef.nullary main_call3.c (constantI S_ 32 0#32),
    TRef.unary main_call3.c main_call3.v9 (broadcastInDim S8388608 ![] bcast_S_S8388608),
    TRef.binary main_call3.v8 main_call3.v9 main_call3.v10 (cmpi .ne),
    TRef.binary main_call3.v6 main_call3.v10 main_call3.v11 andi,
    TRef.nullary main_call3.c_0 (constantI S_ 32 1#32),
    TRef.unary main_call3.c_0 main_call3.v12 (broadcastInDim S8388608 ![] bcast_S_S8388608),
    TRef.binary main_call3.v2 main_call3.v12 main_call3.v13 subi,
    TRef.ternary main_call3.v11 main_call3.v13 main_call3.v2 main_call3.call0.v0 select,
    nullary main_c_3 (constantI S_ 32 64#32),
    TRef.unary (.of main_c_3 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S8388608 ![] bcast_S_S8388608),
    TRef.binary (.of main_v0 : TRef sig ⟨S8388608, .i32⟩) main_call4.v3 main_call4.v4 Host.remsi,
    TRef.nullary main_call4.c_1 (constantI S_ 32 0#32),
    TRef.unary main_call4.c_1 main_call4.v5 (broadcastInDim S8388608 ![] bcast_S_S8388608),
    TRef.binary main_call4.v4 main_call4.v5 main_call4.v6 (cmpi .ne),
    TRef.nullary main_call4.c_2 (constantI S_ 32 0#32),
    TRef.unary main_call4.c_2 main_call4.v7 (broadcastInDim S8388608 ![] bcast_S_S8388608),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S8388608 ![] bcast_S_S8388608),
    TRef.binary main_call4.v8 main_call4.v10 main_call4.v11 (cmpi .ne),
    TRef.binary main_call4.v11 main_call4.v6 main_call4.v12 andi,
    TRef.unary main_call4.call0.v0 main_call4.v13 (broadcastInDim S8388608 ![] bcast_S_S8388608),
    TRef.binary main_call4.v4 main_call4.v13 main_call4.v14 addi,
    TRef.ternary main_call4.v12 main_call4.v14 main_call4.v4 main_call4.v15 select,
    nullary main_c_4 (constantI S_ 32 256#32),
    unary main_c_4 main_v10 (broadcastInDim S8388608 ![] bcast_S_S8388608),
    binary main_v4 main_v10 main_v11 muli,
    binary main_v11 main_v6 main_v12 addi,
    nullary main_c_5 (constantI S_ 32 256#32),
    unary main_c_5 main_v13 (broadcastInDim S8388608 ![] bcast_S_S8388608),
    binary main_v12 main_v13 main_v14 muli,
    binary main_v14 main_v8 main_v15 addi,
    nullary main_c_6 (constantI S_ 32 64#32),
    unary main_c_6 main_v16 (broadcastInDim S8388608 ![] bcast_S_S8388608),
    binary main_v15 main_v16 main_v17 muli,
    binary main_v17 main_v9 main_v18 addi,
    nullary main_cst (constant S_ .f32 0x00000000#32),
    unary main_cst main_v19 (broadcastInDim S33554432 ![] bcast_S_S33554432),
    nullary main_c_7 (constantI S_ 32 0#32),
    unary main_c_7 main_v20 (broadcastInDim S8388608 ![] bcast_S_S8388608),
    binary main_v18 main_v20 main_v21 (cmpi .slt),
    nullary main_c_8 (constantI S_ 32 33554432#32),
    unary main_c_8 main_v22 (broadcastInDim S8388608 ![] bcast_S_S8388608),
    binary main_v18 main_v22 main_v23 addi,
    ternary main_v21 main_v23 main_v18 main_v24 select,
    unary main_v24 main_v25 (broadcastInDim S8388608x1 ![0] bcast_S8388608_S8388608x1_0),
    ternary main_v19 main_v25 main_v1 main_v26 (fun x i u => Host.scatterAdd scatter_S33554432_S8388608x1_S8388608_n_0_0_1 x i u),
    reshape main_v26 main_v27 rfl shapeCasts_S33554432_S8x256x256x64 ]

-- one bind per operation is re-associated: the rewriting recurses once per statement
set_option maxRecDepth 8192 in
set_option maxHeartbeats 1600000 in
/-- The program is that straight line: the four function bodies unfolded at their calls, sequencing
    re-associated. -/
theorem main_eq (c : Dev nD) : main (F := F) c = seq ops := by
  simp only [main, fn_remainder.body, fn_floor_divide.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨reshape_bufs_sub .., reshape_bufs_sub .., nullary_bufs_sub .., unary_bufs_sub .., reshape_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., ternary_bufs_sub .., reshape_bufs_sub ..⟩

set_option maxRecDepth 8192 in
/-- At the compiled mesh, for any float values, from any memory with zero counters: every weakly fair execution
    of the reference terminates, and every final state has each buffer at the operations' fold over the launch
    contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference program's result as one function of its two argument arrays.

  The run of the reference ends with each buffer at the fold of its 131 operations over the launch contents.
  Read at the result buffer, that fold is a closed term of the two arguments:

    tailR x (refFlat a)

  where refFlat a is the array of flat output positions ((b * 256 + h) * 256 + w) * 64 + c computed from the
  index array a (b the image number, read off an iota over the eight images; h, w, c the decoded row, column
  and channel, by sign-repaired remainders and floored quotients with the divisors 4194304, 16384 and 64), and
  tailR x f is the scatter-add of the flattened x into a zero array at the positions f (a negative position
  first wrapped by the array's length), reshaped to the output's shape.  Read at an argument buffer the fold is
  what was there: no operation writes an argument.
-/
import proofs.«145653_j38457137168658_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a function of the arguments -/

/-- The sign-repaired remainder of an array by a scalar divisor d, as the remainder function computes it: d is
    replaced by one when it is zero; r is the truncating remainder; where r is nonzero and its sign differs from
    the divisor's, the divisor is added. -/
def remA (x : IVec S8388608 32) (d : IVec S_ 32) : IVec S8388608 32 :=
  let d' : IVec S_ 32 := select (cmpi .eq d (constantI S_ 32 0#32)) (constantI S_ 32 1#32) d
  let r : IVec S8388608 32 := Host.remsi x (broadcastInDim S8388608 ![] bcast_S_S8388608 d')
  select
    (andi (cmpi .ne (cmpi .slt r (broadcastInDim S8388608 ![] bcast_S_S8388608 (constantI S_ 32 0#32)))
                    (broadcastInDim S8388608 ![] bcast_S_S8388608 (cmpi .slt d' (constantI S_ 32 0#32))))
          (cmpi .ne r (broadcastInDim S8388608 ![] bcast_S_S8388608 (constantI S_ 32 0#32))))
    (addi r (broadcastInDim S8388608 ![] bcast_S_S8388608 d')) r

/-- The floored quotient of an array by a scalar divisor d, as the floor-divide function computes it: the
    truncating quotient, less one where the signs of the element and of d differ and the truncating remainder is
    nonzero. -/
def fdivA (x : IVec S8388608 32) (d : IVec S_ 32) : IVec S8388608 32 :=
  let q : IVec S8388608 32 := Host.divsi x (broadcastInDim S8388608 ![] bcast_S_S8388608 d)
  select
    (andi (cmpi .ne (signi x) (broadcastInDim S8388608 ![] bcast_S_S8388608 (signi d)))
          (cmpi .ne (Host.remsi x (broadcastInDim S8388608 ![] bcast_S_S8388608 d)) (broadcastInDim S8388608 ![] bcast_S_S8388608 (constantI S_ 32 0#32))))
    (subi q (broadcastInDim S8388608 ![] bcast_S_S8388608 (constantI S_ 32 1#32))) q

/-- The image number of each flat element: an iota over the eight images, repeated along each image's 1048576
    elements, flattened. -/
def imgA : IVec S8388608 32 :=
  fun i => shapeCast S8388608 (broadcastInDim S8x1048576 ![0] bcast_S8_S8x1048576_0 (iotaInDim S8 32 0)) shapeCasts_S8x1048576_S8388608 i

/-- The reference's flat output positions, from the index array a: with a flattened, h the floored quotient by
    16384 of the remainder by 4194304, w the floored quotient by 64 of the remainder by 16384, c the remainder by 64
    and b the image number, ((b * 256 + h) * 256 + w) * 64 + c. -/
def refFlat (a : IVec S8x128x128x64 32) : IVec S8388608 32 :=
  let a' : IVec S8388608 32 := fun i => shapeCast S8388608 a shapeCasts_S8x128x128x64_S8388608 i
  let h : IVec S8388608 32 := fdivA (remA a' (constantI S_ 32 4194304#32)) (constantI S_ 32 16384#32)
  let w : IVec S8388608 32 := fdivA (remA a' (constantI S_ 32 16384#32)) (constantI S_ 32 64#32)
  let c : IVec S8388608 32 := remA a' (constantI S_ 32 64#32)
  addi (muli (addi (muli (addi (muli imgA (broadcastInDim S8388608 ![] bcast_S_S8388608 (constantI S_ 32 256#32))) h)
    (broadcastInDim S8388608 ![] bcast_S_S8388608 (constantI S_ 32 256#32))) w) (broadcastInDim S8388608 ![] bcast_S_S8388608 (constantI S_ 32 64#32))) c

/-- The program's last stretch, from the array x and flat positions f: x flattened is scatter-added into a zero
    array of 33554432 elements at the positions f — a negative position first wrapped by 33554432 —, each position
    a one-coordinate index; the sum is reshaped to the output's shape. -/
def tailR (x : FVec F S8x128x128x64 .f32) (f : IVec S8388608 32) : FVec F S8x256x256x64 .f32 :=
  fun i => shapeCast S8x256x256x64
    (Host.scatterAdd scatter_S33554432_S8388608x1_S8388608_n_0_0_1
      (broadcastInDim S33554432 ![] bcast_S_S33554432 (constant S_ .f32 0x00000000#32))
      (broadcastInDim S8388608x1 ![0] bcast_S8388608_S8388608x1_0
        (select (cmpi .slt f (broadcastInDim S8388608 ![] bcast_S_S8388608 (constantI S_ 32 0#32)))
          (addi f (broadcastInDim S8388608 ![] bcast_S_S8388608 (constantI S_ 32 33554432#32))) f))
      (fun i => shapeCast S8388608 x shapeCasts_S8x128x128x64_S8388608 i))
    shapeCasts_S33554432_S8x256x256x64 i

/-! ## The fold at the result and at the arguments -/

attribute [local irreducible] Host.scatterAdd in
set_option maxRecDepth 8192 in
set_option maxHeartbeats 1600000 in
/-- The fold of the operations at the result buffer is that term of the two argument buffers' contents: each
    operation's result read at its own buffer is its function of its operands' contents, at any other buffer what
    was there; a value moved to a buffer's own type and back along an equation of types that holds by computation
    is the value; the definitions above then spell the same term. -/
theorem out_eq (V : Valuation τ sig (Elt F)) :
    after ops V (main_v27 : DevRef τ sig)
      = tailR (V (main_arg0 : DevRef τ sig)) (refFlat (V (main_arg1 : DevRef τ sig))) := by
  after_results_simp
  simp only [tailR, refFlat, remA, fdivA, imgA, cast_eq, id_eq]
  rfl

set_option maxRecDepth 8192 in
/-- No operation writes the first argument. -/
theorem arg0_eq (V : Valuation τ sig (Elt F)) :
    after ops V (main_arg0 : DevRef τ sig) = V (main_arg0 : DevRef τ sig) := by
  after_results_simp

set_option maxRecDepth 8192 in
/-- No operation writes the second argument. -/
theorem arg1_eq (V : Valuation τ sig (Elt F)) :
    after ops V (main_arg1 : DevRef τ sig) = V (main_arg1 : DevRef τ sig) := by
  after_results_simp

/-! ## The run -/

/-- At the compiled mesh, for any float values, from any memory with zero counters: every weakly fair execution
    of the reference terminates with its result at tailR of the first argument and refFlat of the second, and
    the two arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v27)
          = tailR (m ((c.tc : Thread nD τ).loc main_arg0)) (refFlat (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v27).trans (out_eq _), (h c main_arg0).trans (arg0_eq _),
      (h c main_arg1).trans (arg1_eq _)⟩)
    (run_ops m ρ)

end Cert.ReferenceIdeal.RefRun

end
-- ==== Proof.Flatten.lean ====
/-
  Flattening the kernel's positions.

  A flat index j of the 8388608 pooled elements is the row-major position of the pooled index
  (j / 1048576, j / 8192 mod 128, j / 64 mod 128, j mod 64): its image number is j / 1048576, since one image holds
  128 * 128 * 64 = 1048576 elements. So the flattened "positions" array is, at j, the flattened index array's element
  offset by (j / 1048576) * 4194304.
-/
import proofs.«145653_j38457137168658_2_alg».proof.Proof.KernelValue
import Idealize.ShloMosaic.Lib.ValueIdx

noncomputable section

namespace Cert.KernelIdeal.KValue

open Cert.KernelIdeal Cert.KernelIdeal.Gen Idealize.ShloMosaic
open Cert.Unpool

/-- The pooled index whose row-major position is the flat index j. -/
def unflat (j : S8388608.Idx) : S8x128x128x64.Idx :=
  ValueIdx.ix4
    (⟨(j 0).val / 1048576, by have h : (j 0).val < 8388608 := (j 0).isLt; omega⟩ : Fin 8)
    (⟨(j 0).val / 8192 % 128, Nat.mod_lt _ (by decide)⟩ : Fin 128)
    (⟨(j 0).val / 64 % 128, Nat.mod_lt _ (by decide)⟩ : Fin 128)
    (⟨(j 0).val % 64, Nat.mod_lt _ (by decide)⟩ : Fin 64)

theorem unflat_position (j : S8388608.Idx) :
    (S8x128x128x64.rowMajor (unflat j)).val = (S8388608.rowMajor j).val := by
  have h4 := Shape.rowMajor_val_four (d := ![8, 128, 128, 64]) (unflat j)
  have h1 := Shape.rowMajor_val_one (d := ![8388608]) j
  refine h4.trans (Eq.trans ?_ h1.symm)
  show ((((j 0).val / 1048576) * 128 + (j 0).val / 8192 % 128) * 128 + (j 0).val / 64 % 128) * 64 + (j 0).val % 64 = (j 0).val
  omega

/-- The flattened positions at a flat index: the flattened index array's element, offset by its image number. -/
theorem flatten_positions (a : IVec S8x128x128x64 32) (j : S8388608.Idx) :
    shapeCast S8388608 (positions a) shapeCasts_S8x128x128x64_S8388608 j
      = Spec.offsetW (BitVec.ofNat 32 ((j 0).val / 1048576))
          (shapeCast S8388608 a shapeCasts_S8x128x128x64_S8388608 j) := by
  rw [shapeCast_apply (positions a) _ j (unflat j) (unflat_position j),
    shapeCast_apply a _ j (unflat j) (unflat_position j)]
  rfl

end Cert.KernelIdeal.KValue

end
-- ==== Proof.WordArith.lean ====
/-
  Word arithmetic of the index decode.

  For a per-image flat index a with 0 <= a < 4194304 = 256 * 256 * 64 (read as a signed 32-bit word) and an image
  number b < 8, decoding a into row, column and channel and recombining them with b gives b * 4194304 + a.

  The dividends met are nonnegative and the divisors are positive literals, so: no division is at its corner
  (the divisor is neither 0 nor -1); the truncating signed remainder and quotient are the unsigned ones; the
  remainder is nonnegative, so the sign repair of the remainder does nothing; dividend and divisor have the same
  sign (or the dividend, hence the remainder, is zero), so the repair of the quotient does nothing.  What is left
  is an identity between natural numbers below 2^25, far from the 32-bit wrap.
-/
import proofs.«145653_j38457137168658_2_alg».proof.Proof.Spec

namespace Cert.Unpool.WordArith

open Idealize.ShloMosaic
open Cert.Unpool.Spec

/-- A Boolean made into a one-bit word is the word 1 exactly when it is true. -/
theorem ofBool_eq_one (c : Bool) : BitVec.ofBool c = 1#1 ↔ c = true := by
  cases c <;> decide

/-- With a nonnegative, nonzero divisor the signed division is not at its corner: the divisor is neither 0
    nor -1 (whose sign bit is set). -/
theorem not_corner (x d : BitVec 32) (hd : d.msb = false) (hd0 : d ≠ 0#32) : ¬ IntOp.SDivCorner x d := by
  intro h
  rcases h with h | ⟨_, h⟩
  · exact hd0 h
  · subst h; exact absurd hd (by decide)

/-- The truncating signed remainder of a nonnegative word by a positive word is the unsigned remainder. -/
theorem remsi_of_nonneg (x d : BitVec 32) (hx : x.msb = false) (hd : d.msb = false) (hd0 : d ≠ 0#32) :
    IntOp.remsi .host x d = x % d := by
  unfold IntOp.remsi
  rw [if_neg (not_corner x d hd hd0), BitVec.srem_eq, hx, hd]

/-- The truncating signed quotient of a nonnegative word by a positive word is the unsigned quotient. -/
theorem divsi_of_nonneg (x d : BitVec 32) (hx : x.msb = false) (hd : d.msb = false) (hd0 : d ≠ 0#32) :
    IntOp.divsi .host x d = x / d := by
  unfold IntOp.divsi
  rw [if_neg (not_corner x d hd hd0), BitVec.sdiv_eq, hx, hd]
  rfl

/-- The sign-repaired remainder of a nonnegative word by a positive word is the unsigned remainder: the
    truncating remainder is nonnegative like the divisor, so nothing is added. -/
theorem remW_of_nonneg (x d : BitVec 32) (hx : x.msb = false) (hd : d.msb = false) (hd0 : d ≠ 0#32) :
    remW x d = x % d := by
  have hr : (x % d).msb = false := by simp [BitVec.msb_umod, hx]
  have hsel : Scalar.select (IntOp.cmpi .eq d 0#32) 1#32 d = d := by
    simp [Scalar.select, IntOp.cmpi, ofBool_eq_one, hd0]
  simp only [remW, hsel, remsi_of_nonneg x d hx hd hd0]
  simp [Scalar.select, IntOp.cmpi, IntOp.andi, BitVec.slt_zero_eq_msb, hr, hd]

/-- The floored quotient of a nonnegative word by a positive word is the unsigned quotient: either the
    dividend is zero, and so is the remainder, or both signs are 1; in neither case is one subtracted. -/
theorem fdivW_of_nonneg (x d : BitVec 32) (hx : x.msb = false) (hd : d.msb = false) (hd0 : d ≠ 0#32) :
    fdivW x d = x / d := by
  simp only [fdivW, divsi_of_nonneg x d hx hd hd0, remsi_of_nonneg x d hx hd hd0]
  by_cases hx0 : x = 0#32
  · subst hx0; simp [Scalar.select, IntOp.cmpi, IntOp.andi]
  · have hs : sgnW x = sgnW d := by simp [sgnW, hx, hd, hx0, hd0]
    simp [Scalar.select, IntOp.cmpi, IntOp.andi, hs]

/-- The two comparisons of the precondition bound the unsigned reading of the word. -/
theorem toNat_lt_of_cmpi (a : BitVec 32)
    (h0 : IntOp.cmpi .sge a 0#32 = 1#1) (h1 : IntOp.cmpi .slt a 4194304#32 = 1#1) : a.toNat < 4194304 := by
  simp only [IntOp.cmpi, ofBool_eq_one] at h0 h1
  have l0 := BitVec.sle_iff_toInt_le.mp h0
  have l1 := BitVec.slt_iff_toInt_lt.mp h1
  have c0 : (0#32).toInt = 0 := by decide
  have c1 : (4194304#32).toInt = 4194304 := by decide
  rw [c0] at l0
  rw [c1] at l1
  have := BitVec.toInt_eq_toNat_cond a
  have hlt := a.isLt
  split at this <;> omega

/-- The three literal divisors are nonnegative words. -/
theorem lit_msb : (4194304#32).msb = false ∧ (16384#32).msb = false ∧ (64#32).msb = false := by decide

/-- The three literal divisors are not zero. -/
theorem lit_ne : 4194304#32 ≠ 0#32 ∧ 16384#32 ≠ 0#32 ∧ 64#32 ≠ 0#32 := by decide

/-- The identity between natural numbers behind the word identity: for A < 256 * 256 * 64 the row
    A / 16384, the column A % 16384 / 64 and the channel A % 64 recombine to A. -/
theorem nat_decode (A B : Nat) (hA : A < 4194304) :
    ((B * 256 + A % 4194304 / 16384) * 256 + A % 16384 / 64) * 64 + A % 64 = A + B * 4194304 := by
  omega

/-- Recombining an image number below 8 with a row and a column below 256 and a channel below 64 never
    reaches 2^32: each partial sum and product is read off without reduction. -/
theorem recombine_toNat (b h w c : BitVec 32) (hb : b.toNat < 8) (hh : h.toNat < 256) (hw : w.toNat < 256)
    (hc : c.toNat < 64) :
    (((b * 256#32 + h) * 256#32 + w) * 64#32 + c).toNat
      = ((b.toNat * 256 + h.toNat) * 256 + w.toNat) * 64 + c.toNat := by
  have t256 : (256#32).toNat = 256 := rfl
  have t64 : (64#32).toNat = 64 := rfl
  have e1 : (b * 256#32).toNat = b.toNat * 256 := by
    rw [BitVec.toNat_mul_of_lt (by rw [t256]; omega), t256]
  have e2 : (b * 256#32 + h).toNat = b.toNat * 256 + h.toNat := by
    rw [BitVec.toNat_add_of_lt (by rw [e1]; omega), e1]
  have e3 : ((b * 256#32 + h) * 256#32).toNat = (b.toNat * 256 + h.toNat) * 256 := by
    rw [BitVec.toNat_mul_of_lt (by rw [e2, t256]; omega), e2, t256]
  have e4 : ((b * 256#32 + h) * 256#32 + w).toNat = (b.toNat * 256 + h.toNat) * 256 + w.toNat := by
    rw [BitVec.toNat_add_of_lt (by rw [e3]; omega), e3]
  have e5 : (((b * 256#32 + h) * 256#32 + w) * 64#32).toNat
      = ((b.toNat * 256 + h.toNat) * 256 + w.toNat) * 64 := by
    rw [BitVec.toNat_mul_of_lt (by rw [e4, t64]; omega), e4, t64]
  rw [BitVec.toNat_add_of_lt (by rw [e5]; omega), e5]

/-- Offsetting an index below 4194304 by an image number below 8 times 4194304 never reaches 2^32. -/
theorem offset_toNat (b a : BitVec 32) (hb : b.toNat < 8) (ha : a.toNat < 4194304) :
    (a + b * 4194304#32).toNat = a.toNat + b.toNat * 4194304 := by
  have t : (4194304#32).toNat = 4194304 := rfl
  have e1 : (b * 4194304#32).toNat = b.toNat * 4194304 := by
    rw [BitVec.toNat_mul_of_lt (by rw [t]; omega), t]
  rw [BitVec.toNat_add_of_lt (by rw [e1]; omega), e1]

/-- The reference's decoded and recombined position is the kernel's offset position. -/
theorem flatW_eq (b a : BitVec 32) (hb : b.toNat < 8)
    (h0 : IntOp.cmpi .sge a 0#32 = 1#1) (h1 : IntOp.cmpi .slt a 4194304#32 = 1#1) :
    Cert.Unpool.Spec.flatW b a = Cert.Unpool.Spec.offsetW b a := by
  have ha : a.toNat < 4194304 := toNat_lt_of_cmpi a h0 h1
  have hax : a.msb = false := by rw [BitVec.msb_eq_false_iff_two_mul_lt]; omega
  have m1 : (a % 4194304#32).msb = false := by simp [BitVec.msb_umod, hax]
  have m2 : (a % 16384#32).msb = false := by simp [BitVec.msb_umod, hax]
  -- the decoded row, column and channel as unsigned quotients and remainders of words
  have eh : fdivW (remW a 4194304#32) 16384#32 = a % 4194304#32 / 16384#32 := by
    rw [remW_of_nonneg a 4194304#32 hax lit_msb.1 lit_ne.1, fdivW_of_nonneg _ 16384#32 m1 lit_msb.2.1 lit_ne.2.1]
  have ew : fdivW (remW a 16384#32) 64#32 = a % 16384#32 / 64#32 := by
    rw [remW_of_nonneg a 16384#32 hax lit_msb.2.1 lit_ne.2.1, fdivW_of_nonneg _ 64#32 m2 lit_msb.2.2 lit_ne.2.2]
  have ec : remW a 64#32 = a % 64#32 := remW_of_nonneg a 64#32 hax lit_msb.2.2 lit_ne.2.2
  -- their unsigned readings
  have th : (a % 4194304#32 / 16384#32).toNat = a.toNat % 4194304 / 16384 := by
    rw [BitVec.toNat_udiv, BitVec.toNat_umod]; rfl
  have tw : (a % 16384#32 / 64#32).toNat = a.toNat % 16384 / 64 := by
    rw [BitVec.toNat_udiv, BitVec.toNat_umod]; rfl
  have tc : (a % 64#32).toNat = a.toNat % 64 := by
    rw [BitVec.toNat_umod]; rfl
  have bh : (a % 4194304#32 / 16384#32).toNat < 256 := by rw [th]; omega
  have bw : (a % 16384#32 / 64#32).toNat < 256 := by rw [tw]; omega
  have bc : (a % 64#32).toNat < 64 := by rw [tc]; omega
  show IntOp.addi (IntOp.muli (IntOp.addi (IntOp.muli (IntOp.addi (IntOp.muli b 256#32)
      (fdivW (remW a 4194304#32) 16384#32)) 256#32) (fdivW (remW a 16384#32) 64#32)) 64#32) (remW a 64#32)
    = IntOp.addi a (IntOp.muli b 4194304#32)
  rw [eh, ew, ec]
  simp only [IntOp.addi, IntOp.muli]
  apply BitVec.eq_of_toNat_eq
  rw [recombine_toNat b _ _ _ hb bh bw bc, offset_toNat b a hb ha, th, tw, tc]
  exact nat_decode a.toNat b.toNat ha

end Cert.Unpool.WordArith
-- ==== Proof.PreBounds.lean ====
/-
  What the precondition says of one element of the index array.

  The precondition is the conjunction of three statements about whole arrays: every |x| is below infinity, every
  index is at least 0, every index is below 4194304.  Each is a reduction by "and", over all four axes, of an
  array of one-bit comparisons, started at 1; the result has a single position.  Such a reduction is 1 only when
  every element reduced is 1, and the element at position i of the second and of the third array is the signed
  comparison of the i-th index with the constant 0, respectively 4194304 (a constant broadcast to every
  position is that constant at every position).  The statement about x is not used.
-/
import proofs.«145653_j38457137168658_2_alg».proof.Pre_finite_inputs
import Idealize.ShloMosaic.Lib.ReduceAll

namespace Cert.Unpool.PreBounds

open Idealize.ShloMosaic
open Cert.Pre_finite_inputs

/-- The shape of rank zero has exactly one index: there is no axis to give a coordinate on. -/
instance : Subsingleton S_.Idx := ⟨fun a b => funext fun d => d.elim0⟩

/-- Under the precondition every index is, as a signed word, at least 0 and below 4194304. -/
theorem bounds_of_pre {F : FTy → Type} [FloatOps F] [Cert.Pre_finite_inputs.Facts]
    (x : FVec F Cert.Pre_finite_inputs.S8x128x128x64 .f32) (a : IVec Cert.Pre_finite_inputs.S8x128x128x64 32)
    (h : Cert.Pre_finite_inputs.fn (F := F) x a = fun _ => 1#1) (i : Cert.Pre_finite_inputs.S8x128x128x64.Idx) :
    IntOp.cmpi .sge (a i) 0#32 = 1#1 ∧ IntOp.cmpi .slt (a i) 4194304#32 = 1#1 := by
  -- the one position of the result
  have j : S_.Idx := fun d => d.elim0
  have e := congrFun h j
  dsimp only [fn, andi] at e
  -- a conjunction of one-bit words is 1 only when both are
  obtain ⟨e12, e3⟩ := IntOp.andi_eq_one.1 e
  obtain ⟨_, e2⟩ := IntOp.andi_eq_one.1 e12
  -- a reduction by "and" into one position is 1 only when every element is
  have p2 := Host.reduce_andi_all _ _ _ _ j e2 i
  have p3 := Host.reduce_andi_all _ _ _ _ j e3 i
  exact ⟨p2, p3⟩

end Cert.Unpool.PreBounds
-- ==== Proof.Positions.lean ====
/-
  Under the stated domain the kernel's positions are the reference's, element by element.

  At flat index j the kernel's position is the per-image index a offset by (j / 1048576) * 4194304. The precondition
  says 0 <= a < 4194304 for every element, and the image number j / 1048576 is below 8; for such words the reference's
  decode-and-recombine gives back the same word (the word identity of the arithmetic module). So the flattened
  "positions" array is, index by index, the reference's recombined position of the image number and the element.
-/
import proofs.«145653_j38457137168658_2_alg».proof.Proof.Flatten
import proofs.«145653_j38457137168658_2_alg».proof.Proof.WordArith
import proofs.«145653_j38457137168658_2_alg».proof.Proof.PreBounds

noncomputable section

namespace Cert.KernelIdeal.KValue

open Cert.KernelIdeal Cert.KernelIdeal.Gen Idealize.ShloMosaic
open Cert.Unpool

variable {F : FTy → Type} [FloatOps F] [Cert.Pre_finite_inputs.Facts]

/-- The image number of a flat index is a word below 8. -/
theorem image_lt (j : S8388608.Idx) : (BitVec.ofNat 32 ((j 0).val / 1048576)).toNat < 8 := by
  have h : (j 0).val < 8388608 := (j 0).isLt
  rw [BitVec.toNat_ofNat]
  have h8 : (j 0).val / 1048576 < 8 := by omega
  have h32 : (j 0).val / 1048576 % 2 ^ 32 = (j 0).val / 1048576 := Nat.mod_eq_of_lt (by omega)
  omega

/-- Where every index element lies in [0, 4194304), the kernel's flattened positions are the reference's recombined
    positions, flat index by flat index. -/
theorem flat_positions_eq (x : FVec F S8x128x128x64 .f32) (a : IVec S8x128x128x64 32)
    (h : Cert.Pre_finite_inputs.fn (F := F) x a = fun _ => 1#1) :
    shapeCast S8388608 (positions a) shapeCasts_S8x128x128x64_S8388608
      = fun j => Spec.flatW (BitVec.ofNat 32 ((j 0).val / 1048576))
          (shapeCast S8388608 a shapeCasts_S8x128x128x64_S8388608 j) := by
  funext j
  rw [flatten_positions, shapeCast_apply a _ j (unflat j) (unflat_position j)]
  obtain ⟨h0, h1⟩ := PreBounds.bounds_of_pre x a h (unflat j)
  exact (WordArith.flatW_eq _ _ (image_lt j) h0 h1).symm

end Cert.KernelIdeal.KValue

end
-- ==== Proof.RefValue.lean ====
/-
  The reference's flat positions read index by index.

  Every operation that computes the positions is pointwise, and a scalar broadcast to the array reads the scalar
  at every index.  So at flat index j the array remainder and the array floored quotient by a constant divisor
  are the scalar sign-repaired remainder and floored quotient of the element at j, and the array of positions is
  the scalar recombination ((b * 256 + h) * 256 + w) * 64 + c of the image number b and the element.  The image
  number at j is j / 1048576: the iota over the eight images is repeated along each image's 1048576 elements and
  flattened row-major, so position j sits in row j / 1048576.
-/
import proofs.«145653_j38457137168658_2_alg».proof.Proof.RefRun
import proofs.«145653_j38457137168658_2_alg».proof.Proof.Spec
import Idealize.ShloMosaic.Lib.Pipeline.Value

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Unpool

/-- The array remainder by a constant divisor D, read at an index, is the scalar sign-repaired remainder of the
    element by D: every operation of it is pointwise, and a broadcast scalar reads the scalar. -/
theorem remA_apply (x : IVec S8388608 32) (D : BitVec 32) (j : S8388608.Idx) :
    remA x (constantI S_ 32 D) j = Spec.remW (x j) D := rfl

/-- The array floored quotient by a constant divisor D, read at an index, is the scalar floored quotient of the
    element by D; the sign of an element is the sign word of the element. -/
theorem fdivA_apply (x : IVec S8388608 32) (D : BitVec 32) (j : S8388608.Idx) :
    fdivA x (constantI S_ 32 D) j = Spec.fdivW (x j) D := rfl

/-- The image number at flat index j is j / 1048576: position j of the flattened [8, 1048576] array is row
    j / 1048576, column j % 1048576, and the array's rows repeat the iota's entries. -/
theorem imgA_apply (j : S8388608.Idx) : imgA j = BitVec.ofNat 32 ((j 0).val / 1048576) := by
  have hj : (j 0).val < 8388608 := (j 0).isLt
  have hq : (j 0).val / 1048576 < 8 := by omega
  have hr : (j 0).val % 1048576 < 1048576 := by omega
  unfold imgA
  refine (shapeCast_apply _ _ j
    (fun a => match a with | ⟨0, _⟩ => ⟨(j 0).val / 1048576, hq⟩ | ⟨1, _⟩ => ⟨(j 0).val % 1048576, hr⟩)
    (by rw [Shape.rowMajor_val_two, Shape.rowMajor_val_one]
        show (j 0).val / 1048576 * 1048576 + (j 0).val % 1048576 = (j 0).val
        omega)).trans ?_
  refine (broadcastInDim_apply _ _ _ _ (fun a => match a with | ⟨0, _⟩ => ⟨(j 0).val / 1048576, hq⟩)
    (fun a => match a with | ⟨0, _⟩ => rfl)).trans ?_
  rfl

/-- Index by index, the reference's flat position is the scalar recombination of the image number and the
    element of the flattened index array. -/
theorem refFlat_eq (a : IVec S8x128x128x64 32) :
    refFlat a = fun j => Spec.flatW (BitVec.ofNat 32 ((j 0).val / 1048576))
      (shapeCast S8388608 a shapeCasts_S8x128x128x64_S8388608 j) := by
  funext j
  have e : refFlat a j
      = IntOp.addi (IntOp.muli (IntOp.addi (IntOp.muli (IntOp.addi (IntOp.muli (imgA j) 256#32)
          (fdivA (remA (fun i => shapeCast S8388608 a shapeCasts_S8x128x128x64_S8388608 i) (constantI S_ 32 4194304#32))
            (constantI S_ 32 16384#32) j)) 256#32)
          (fdivA (remA (fun i => shapeCast S8388608 a shapeCasts_S8x128x128x64_S8388608 i) (constantI S_ 32 16384#32))
            (constantI S_ 32 64#32) j)) 64#32)
          (remA (fun i => shapeCast S8388608 a shapeCasts_S8x128x128x64_S8388608 i) (constantI S_ 32 64#32) j) := rfl
  rw [e, imgA_apply, fdivA_apply, fdivA_apply, remA_apply, remA_apply, remA_apply]
  rfl

end Cert.ReferenceIdeal.RefRun

end
-- ==== Proof.Bridge.lean ====
/-
  The two programs compute one result.

  Both end with the same scatter: flatten the values, wrap negative positions, scatter-add into zeros, reshape. They
  differ only in the flat positions they feed it. The kernel's are the per-image index offset by the image's size;
  the reference's are the index decoded into row, column and channel and recombined with the image number. Where
  every index lies in [0, 4194304) these are the same word at every element, so the two scatters are the same term.
-/
import proofs.«145653_j38457137168658_2_alg».proof.Proof.Positions
import proofs.«145653_j38457137168658_2_alg».proof.Proof.KernelRun
import proofs.«145653_j38457137168658_2_alg».proof.Proof.RefValue

noncomputable section

namespace Cert.Unpool.Bridge

open Idealize.ShloMosaic

variable {F : FTy → Type} [FloatOps F] [Cert.Pre_finite_inputs.Facts]

/-- The scatter after the kernel's region and the scatter that ends the reference are one function of the values and
    of the flat positions: the same operations with the same literals. -/
theorem tail_same (x : FVec F Cert.KernelIdeal.S8x128x128x64 .f32) (f : IVec Cert.KernelIdeal.S8388608 32) :
    Cert.KernelIdeal.KValue.flatTail (F := F) x f = Cert.ReferenceIdeal.RefRun.tailR (F := F) x f := rfl

/-- Under the stated domain the reference's result is the kernel's. -/
theorem result_eq (x : FVec F Cert.KernelIdeal.S8x128x128x64 .f32) (a : IVec Cert.KernelIdeal.S8x128x128x64 32)
    (h : Cert.Pre_finite_inputs.fn (F := F) x a = fun _ => 1#1) :
    Cert.ReferenceIdeal.RefRun.tailR (F := F) x (Cert.ReferenceIdeal.RefRun.refFlat a)
      = Cert.KernelIdeal.KValue.scatterTail (F := F) x (Cert.KernelIdeal.KValue.positions a) := by
  rw [Cert.ReferenceIdeal.RefRun.refFlat_eq]
  unfold Cert.KernelIdeal.KValue.scatterTail
  rw [Cert.KernelIdeal.KValue.flat_positions_eq x a h]
  exact (tail_same x _).symm

end Cert.Unpool.Bridge

end
-- ==== Proof.lean ====
/-
  Max-unpooling by scatter-add: a kernel that computes each pooled element's flat output position as the element's
  per-image index offset by its image's size, against a reference that decodes the index into row, column and
  channel by remainders and floored quotients and recombines them with the image number.

  Stated domain: every value is finite and every index lies in [0, 4194304), the size of one output image. On that
  domain the two positions are the same 32-bit word at every element (Proof/WordArith.lean), so the two programs
  apply the same scatter to the same operands and their results are equal element by element (Proof/Bridge.lean).
  Outside it they differ: an index equal to 4194304 sends the kernel's element into the next image, while the
  reference wraps it back into its own.

  The three frames: each kernel program's run is the pipeline's frame run (Proof/KernelFrameP.lean,
  Proof/KernelIdealFrameP.lean); the reference has no kernel, and its frame is its run with the result dropped
  (Proof/RefRun.lean). The idealization rewrote no operation, so there is nothing to preserve.
-/
import proofs.«145653_j38457137168658_2_alg».proof.Defs
import proofs.«145653_j38457137168658_2_alg».proof.Proof.Gen.Kernel
import proofs.«145653_j38457137168658_2_alg».proof.Proof.Gen.KernelIdeal
import proofs.«145653_j38457137168658_2_alg».proof.Proof.Gen.ReferenceIdeal
import proofs.«145653_j38457137168658_2_alg».proof.Proof.Gen.Pre_finite_inputs
import proofs.«145653_j38457137168658_2_alg».proof.Proof.KernelFrameP
import proofs.«145653_j38457137168658_2_alg».proof.Proof.KernelIdealFrameP
import proofs.«145653_j38457137168658_2_alg».proof.Proof.KernelRun
import proofs.«145653_j38457137168658_2_alg».proof.Proof.RefRun
import proofs.«145653_j38457137168658_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernel_ideal : Cert.frame_KernelIdeal := fun m ρ _ => Cert.KernelIdeal.GenP.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the arguments both programs end, the kernel's result at its scatter of its
    positions and the reference's at the same scatter of its own positions; under the stated domain the positions
    are equal, hence so are the results. -/
theorem algebraic : Cert.algebraic_KernelIdeal_ReferenceIdeal := by
  intro m ρ m' ρ' hpre hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.Unpool.Bridge.result_eq _ _ (hpre c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
